-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 39
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.NodeUpdate.lean ====
/-
  The node update as one function of six arrays, and the tile body's value as that function of the tile's blocks.

  For a table of `N` nodes with 128 features, `update a0 a1 a2 a3 a4 a5` has at node `p` and output feature `q`

      (∑ k, a0 (p, k) · a4 (k, q))  +  (∑ k, (a1 (p, k) · a2 (p, 0)) · a3 (k, q))  +  a5 q

  — the node's own features through the self matrix `a4`, plus its aggregated neighbour features `a1`, each scaled
  by the node's own factor `a2 (p, 0)`, through the neighbour matrix `a3`, plus the bias `a5`. Row `p` of the result
  depends on row `p` of `a0`, `a1`, `a2` only, so the update of a block of rows is the same block of the update.

  The tile body computes exactly this on a block of 5000 rows: the two products are contractions into a zero
  accumulator (plain sums at the ideal values), the changes of float format are the identity, and the scaling
  column and the bias row are repeated along the other axis.
-/
import proofs.«157772_j10264971837830_2_alg».proof.Proof.Gen.KernelIdeal.Skeleton
import proofs.«157772_j10264971837830_2_alg».proof.Proof.LibPlainProduct
import proofs.«157772_j10264971837830_2_alg».proof.Proof.LibBroadcast
import proofs.«157772_j10264971837830_2_alg».proof.Proof.LibRowsProduct

noncomputable section

open scoped BigOperators

namespace Cert.NodeUpdate

open Idealize.ShloMosaic Idealize.ShloMosaic.ValueIdx

/-- The update at node `p`, output feature `q`. -/
def updateAt {N : ℕ} (a0 a1 : (⟨2, ![N, 128]⟩ : Shape).Idx → EReal) (a2 : (⟨2, ![N, 1]⟩ : Shape).Idx → EReal)
    (a3 a4 : (⟨2, ![128, 128]⟩ : Shape).Idx → EReal) (a5 : (⟨1, ![128]⟩ : Shape).Idx → EReal) (p : Fin N) (q : Fin 128) : EReal :=
  ((∑ k : Fin 128, a0 (ix2 p k) * a4 (ix2 k q))
      + ∑ k : Fin 128, (a1 (ix2 p k) * a2 (ix2 p (0 : Fin 1))) * a3 (ix2 k q))
    + a5 (ix1 q)

/-- The update of the whole table. -/
def update {N : ℕ} (a0 a1 : (⟨2, ![N, 128]⟩ : Shape).Idx → EReal) (a2 : (⟨2, ![N, 1]⟩ : Shape).Idx → EReal)
    (a3 a4 : (⟨2, ![128, 128]⟩ : Shape).Idx → EReal) (a5 : (⟨1, ![128]⟩ : Shape).Idx → EReal) :
    (⟨2, ![N, 128]⟩ : Shape).Idx → EReal :=
  fun i => updateAt a0 a1 a2 a3 a4 a5 (i 0) (i 1)

theorem update_apply {N : ℕ} (a0 a1 : (⟨2, ![N, 128]⟩ : Shape).Idx → EReal) (a2 : (⟨2, ![N, 1]⟩ : Shape).Idx → EReal)
    (a3 a4 : (⟨2, ![128, 128]⟩ : Shape).Idx → EReal) (a5 : (⟨1, ![128]⟩ : Shape).Idx → EReal) (p : Fin N) (q : Fin 128) :
    update a0 a1 a2 a3 a4 a5 (ix2 p q) = updateAt a0 a1 a2 a3 a4 a5 p q := rfl

/-- ROWS ARE INDEPENDENT: if three blocks of 5000 rows are rows `b · 5000 …` of three tables of 50000 rows, the update of
    the blocks at row `p` is the update of the tables at row `b · 5000 + p`. -/
theorem update_rows (A0 A1 : (⟨2, ![50000, 128]⟩ : Shape).Idx → EReal) (A2 : (⟨2, ![50000, 1]⟩ : Shape).Idx → EReal)
    (a3 a4 : (⟨2, ![128, 128]⟩ : Shape).Idx → EReal) (a5 : (⟨1, ![128]⟩ : Shape).Idx → EReal)
    (x0 x1 : (⟨2, ![5000, 128]⟩ : Shape).Idx → EReal) (x2 : (⟨2, ![5000, 1]⟩ : Shape).Idx → EReal)
    (b : ℕ) (hb : b * 5000 + 5000 ≤ 50000)
    (h0 : ∀ (p : Fin 5000) (k : Fin 128), x0 (ix2 p k) = A0 (ix2 (⟨b * 5000 + p.val, by have := p.isLt; omega⟩ : Fin 50000) k))
    (h1 : ∀ (p : Fin 5000) (k : Fin 128), x1 (ix2 p k) = A1 (ix2 (⟨b * 5000 + p.val, by have := p.isLt; omega⟩ : Fin 50000) k))
    (h2 : ∀ (p : Fin 5000), x2 (ix2 p (0 : Fin 1)) = A2 (ix2 (⟨b * 5000 + p.val, by have := p.isLt; omega⟩ : Fin 50000) (0 : Fin 1)))
    (p : Fin 5000) (q : Fin 128) :
    update x0 x1 x2 a3 a4 a5 (ix2 p q)
      = update A0 A1 A2 a3 a4 a5 (ix2 (⟨b * 5000 + p.val, by have := p.isLt; omega⟩ : Fin 50000) q) := by
  rw [update_apply, update_apply]
  unfold updateAt
  simp only [h0, h1, h2]

open Cert.KernelIdeal Cert.KernelIdeal.Gen in
/-- THE TILE BODY'S VALUE: the stored value is the update of the six loaded blocks (the self matrix is the body's
    second load, the neighbour matrix its third). -/
theorem payload_eq (x0 x1 : FVec Ideal S5000x128 .f32) (x2 : FVec Ideal S5000x1 .f32)
    (x3 x4 : FVec Ideal S128x128 .f32) (x5 : FVec Ideal S128 .f32) :
    k0_pay1 (F := Ideal) x0 x4 x3 x1 x2 x5 = update x0 x1 x2 x3 x4 x5 := by
  funext j
  obtain ⟨p, q, rfl⟩ : ∃ (p : Fin 5000) (q : Fin 128), j = ix2 p q := ⟨j 0, j 1, eq_ix2 j⟩
  rw [update_apply]
  unfold k0_pay1 updateAt
  simp only [shapeCast_self]
  show (FloatOps.matmul dot_S5000x128_S128x128_S5000x128_1_0_0_1_n_n none x0 x4 (constant S5000x128 .f32 0x00000000#32) (ix2 p q)
      + FloatOps.matmul dot_S5000x128_S128x128_S5000x128_1_0_0_1_n_n none
          (fun i => x1 i * broadcastTo S5000x128 x2 broadcasts_S5000x1_S5000x128 i) x3 (constant S5000x128 .f32 0x00000000#32) (ix2 p q))
      + broadcastTo S5000x128 (shapeCast S1x128 x5 shapeCasts_S128_S1x128) broadcasts_S1x128_S5000x128 (ix2 p q) = _
  rw [Cert.RowsProduct.broadcastTo_1n_an_apply, Cert.Layout.shapeCast_row_apply]
  refine congrArg₂ (· + ·) (congrArg₂ (· + ·) ?_ ?_) rfl
  · exact Cert.PlainProduct.matmul_nn_apply dot_S5000x128_S128x128_S5000x128_1_0_0_1_n_n_wf none x0 x4 p q
  · refine (Cert.PlainProduct.matmul_nn_apply dot_S5000x128_S128x128_S5000x128_1_0_0_1_n_n_wf none
      (fun i => x1 i * broadcastTo S5000x128 x2 broadcasts_S5000x1_S5000x128 i) x3 p q).trans ?_
    refine Finset.sum_congr rfl fun k _ => ?_
    show (x1 (ix2 p k) * broadcastTo S5000x128 x2 broadcasts_S5000x1_S5000x128 (ix2 p k)) * x3 (ix2 k q) = _
    rw [Cert.Layout.broadcastTo_a1_ab_apply]

end Cert.NodeUpdate

end
-- ==== Proof.Tiles.lean ====
/-
  From the ten tiles to the whole table.

  The grid has ten points; point `t` reads rows `5000 t … 5000 t + 4999` of the node features, of the aggregated
  neighbour features and of the scaling column, reads the two matrices and the bias whole, and writes rows
  `5000 t …` of the result. What it writes is the node update (NodeUpdate.lean) of its blocks, and a row of the
  update depends on the same row of its first three arguments only; so point `t`'s block is block `t` of the update of
  the six whole arrays, the ten blocks tile the table, and the table ends holding that update.
-/
import proofs.«157772_j10264971837830_2_alg».proof.Proof.Gen.KernelIdeal.Value
import proofs.«157772_j10264971837830_2_alg».proof.Proof.NodeUpdate

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The index maps, decided over the ten points: the three row-blocked inputs and the output sit at block row `t`,
    block column 0; the matrices and the bias at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 ∧ t.val < 10 :=
  (by decide +kernel : ∀ t : Fin grid0.N, _)

/-- The neighbour matrix's window is the whole matrix at every point. -/
theorem whole3 (c : Dev nD) (t : Fin cfg0.N) : (iblk m c 3 t : S128x128.Idx → EReal) = V m c main_v0 := by
  obtain ⟨-, -, -, -, -, -, e0, e1, -⟩ := block_index t
  funext y
  show V m c main_v0 (((cfg0.win 3).blk t).view.emb y) = V m c main_v0 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The self matrix's window is the whole matrix at every point. -/
theorem whole4 (c : Dev nD) (t : Fin cfg0.N) : (iblk m c 4 t : S128x128.Idx → EReal) = V m c main_v1 := by
  obtain ⟨-, -, -, -, -, -, -, -, e0, e1, -⟩ := block_index t
  funext y
  show V m c main_v1 (((cfg0.win 4).blk t).view.emb y) = V m c main_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias's window is the whole bias at every point. -/
theorem whole5 (c : Dev nD) (t : Fin cfg0.N) : (iblk m c 5 t : S128.Idx → EReal) = V m c main_arg6 := by
  obtain ⟨-, -, -, -, -, -, -, -, -, -, e0, -⟩ := block_index t
  funext y
  show V m c main_arg6 (((cfg0.win 5).blk t).view.emb y) = V m c main_arg6 y
  refine congrArg _ (funext fun a => Fin.ext ?_)
  match a with
  | ⟨0, _⟩ => show win0_5.index t (0 : Fin 1) * 128 + 1 * (y 0).val = (y 0).val; omega

/-- There are ten points. -/
theorem point_lt : ∀ t : Fin cfg0.N, t.val < 10 := (by decide +kernel : ∀ t : Fin grid0.N, t.val < 10)

/-- Row `p` of the node features' block at point `t` is row `5000 t + p` of the array. -/
theorem emb0 (t : Fin cfg0.N) (p : Fin 5000) (k : Fin 128) :
    ((cfg0.win 0).blk t).view.emb (ix2 p k)
      = ix2 (⟨t.val * 5000 + p.val, by have := point_lt t; have := p.isLt; omega⟩ : Fin 50000) k := by
  obtain ⟨e0, e1, -⟩ := block_index t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the aggregated neighbour features' block. -/
theorem emb1 (t : Fin cfg0.N) (p : Fin 5000) (k : Fin 128) :
    ((cfg0.win 1).blk t).view.emb (ix2 p k)
      = ix2 (⟨t.val * 5000 + p.val, by have := point_lt t; have := p.isLt; omega⟩ : Fin 50000) k := by
  obtain ⟨-, -, e0, e1, -⟩ := block_index t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The same for the scaling column's block. -/
theorem emb2 (t : Fin cfg0.N) (p : Fin 5000) :
    ((cfg0.win 2).blk t).view.emb (ix2 p (0 : Fin 1))
      = ix2 (⟨t.val * 5000 + p.val, by have := point_lt t; have := p.isLt; omega⟩ : Fin 50000) (0 : Fin 1) := by
  obtain ⟨-, -, -, -, e0, e1, -⟩ := block_index t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- The same for the result's block. -/
theorem emb6 (t : Fin cfg0.N) (p : Fin 5000) (q : Fin 128) :
    ((cfg0.win 6).blk t).view.emb (ix2 p q)
      = ix2 (⟨t.val * 5000 + p.val, by have := point_lt t; have := p.isLt; omega⟩ : Fin 50000) q := by
  obtain ⟨-, -, -, -, -, -, -, -, -, -, -, e0, e1, -⟩ := block_index t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-- A block of any `[50000, 128]` array read through the first window at point `t`: rows `5000 t …`. -/
theorem read0 (A : S50000x128.Idx → EReal) (t : Fin cfg0.N) (p : Fin 5000) (k : Fin 128) :
    ((cfg0.win 0).blk t).view.read (Elt Ideal) A (ix2 p k)
      = A (ix2 (⟨t.val * 5000 + p.val, by have := point_lt t; have := p.isLt; omega⟩ : Fin 50000) k) := by
  show A (((cfg0.win 0).blk t).view.emb (ix2 p k)) = _
  rw [emb0 t p k]

/-- The same through the second window. -/
theorem read1 (A : S50000x128.Idx → EReal) (t : Fin cfg0.N) (p : Fin 5000) (k : Fin 128) :
    ((cfg0.win 1).blk t).view.read (Elt Ideal) A (ix2 p k)
      = A (ix2 (⟨t.val * 5000 + p.val, by have := point_lt t; have := p.isLt; omega⟩ : Fin 50000) k) := by
  show A (((cfg0.win 1).blk t).view.emb (ix2 p k)) = _
  rw [emb1 t p k]

/-- A block of any `[50000, 1]` column read through the third window at point `t`. -/
theorem read2 (A : S50000x1.Idx → EReal) (t : Fin cfg0.N) (p : Fin 5000) :
    ((cfg0.win 2).blk t).view.read (Elt Ideal) A (ix2 p (0 : Fin 1))
      = A (ix2 (⟨t.val * 5000 + p.val, by have := point_lt t; have := p.isLt; omega⟩ : Fin 50000) (0 : Fin 1)) := by
  show A (((cfg0.win 2).blk t).view.emb (ix2 p (0 : Fin 1))) = _
  rw [emb2 t p]

/-- A block of any `[50000, 128]` array read through the result's window at point `t`. -/
theorem read6 (A : S50000x128.Idx → EReal) (t : Fin cfg0.N) (p : Fin 5000) (q : Fin 128) :
    ((cfg0.win 6).blk t).view.read (Elt Ideal) A (ix2 p q)
      = A (ix2 (⟨t.val * 5000 + p.val, by have := point_lt t; have := p.isLt; omega⟩ : Fin 50000) q) := by
  show A (((cfg0.win 6).blk t).view.emb (ix2 p q)) = _
  rw [emb6 t p q]

/-- The node features' block at point `t` is rows `5000 t …` of the array. -/
theorem rows0 (c : Dev nD) (t : Fin cfg0.N) (p : Fin 5000) (k : Fin 128) :
    (iblk m c 0 t : S5000x128.Idx → EReal) (ix2 p k)
      = V m c main_arg0 (ix2 (⟨t.val * 5000 + p.val, by have := point_lt t; have := p.isLt; omega⟩ : Fin 50000) k) :=
  read0 (V m c main_arg0) t p k

/-- The aggregated neighbour features' block at point `t` is rows `5000 t …` of the array. -/
theorem rows1 (c : Dev nD) (t : Fin cfg0.N) (p : Fin 5000) (k : Fin 128) :
    (iblk m c 1 t : S5000x128.Idx → EReal) (ix2 p k)
      = V m c main_v14 (ix2 (⟨t.val * 5000 + p.val, by have := point_lt t; have := p.isLt; omega⟩ : Fin 50000) k) :=
  read1 (V m c main_v14) t p k

/-- The scaling column's block at point `t` is rows `5000 t …` of the column. -/
theorem rows2 (c : Dev nD) (t : Fin cfg0.N) (p : Fin 5000) :
    (iblk m c 2 t : S5000x1.Idx → EReal) (ix2 p (0 : Fin 1))
      = V m c main_v23 (ix2 (⟨t.val * 5000 + p.val, by have := point_lt t; have := p.isLt; omega⟩ : Fin 50000) (0 : Fin 1)) :=
  read2 (V m c main_v23) t p

/-- The whole table the region leaves: the node update of the six arrays as the region finds them. -/
abbrev table (c : Dev nD) : S50000x128.Idx → EReal :=
  update (V m c main_arg0) (V m c main_v14) (V m c main_v23) (V m c main_v0) (V m c main_v1) (V m c main_arg6)

/-- WHAT POINT `t` WRITES BACK is block `t` of the table. -/
theorem flushed_eq (c : Dev nD) (t : Fin cfg0.N) :
    (dats m 0 c).flushed 6 t = ((cfg0.win 6).blk t).view.read (Elt Ideal) (table m c) := by
  rw [flushed6]
  unfold out0_6
  rw [View.canon_unit_zero origin2]
  simp only [View.ld_unit_zero (S := S5000x128) origin2, View.ld_unit_zero (S := S128x128) origin2,
    View.ld_unit_zero (S := S5000x1) origin2, View.ld_unit_zero (S := S128) origin1]
  rw [payload_eq (iblk m c 0 t) (iblk m c 1 t) (iblk m c 2 t) (iblk m c 3 t) (iblk m c 4 t) (iblk m c 5 t),
    whole3 m c t, whole4 m c t, whole5 m c t]
  funext j
  obtain ⟨p, q, rfl⟩ : ∃ (p : Fin 5000) (q : Fin 128), j = ix2 p q := ⟨j 0, j 1, eq_ix2 j⟩
  show update (iblk m c 0 t) (iblk m c 1 t) (iblk m c 2 t) (V m c main_v0) (V m c main_v1) (V m c main_arg6) (ix2 p q)
      = ((cfg0.win 6).blk t).view.read (Elt Ideal) (table m c) (ix2 p q)
  rw [read6 (table m c) t p q]
  exact update_rows (V m c main_arg0) (V m c main_v14) (V m c main_v23) (V m c main_v0) (V m c main_v1) (V m c main_arg6)
    (iblk m c 0 t) (iblk m c 1 t) (iblk m c 2 t) t.val (by have := point_lt t; omega)
    (rows0 m c t) (rows1 m c t) (rows2 m c t) p q

/-- An index of the table is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- Every block row is some point's. -/
theorem point_of_row : ∀ b : Fin 10, ∃ t : Fin cfg0.N, win0_6.index t = ![b.val, 0] :=
  (by decide +kernel : ∀ b : Fin 10, ∃ t : Fin grid0.N, win0_6.index t = ![b.val, 0])

/-- THE TEN BLOCKS TILE THE TABLE: row `r` is in the block of the point at block row `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := point_of_row ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE TABLE after the run is the node update of the six arrays as the region finds them. -/
theorem final (c : Dev nD) : (dats m 0 c).arrAt 6 cfg0.N = table m c :=
  (dats m 0 c).arrAt_eq_of_cover 6 (table m c) (fun t _ => flushed_eq m c t) cover

/-- The kernel's run, read: the result array at the node update, the arguments unchanged. -/
theorem run : θ_run defs (onTc (τ := τ) (main (F := Ideal))) ⟨m, fun _ => 0, ρ⟩ fun r => ∀ c : Dev nD,
      r.2.mem ((c : Thread nD τ).loc main_v24) = table m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Tiles

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.Messages.lean ====
/-
  The message-passing prefix shared by the two programs, read at an index.

  From a table `T : [50000, 128]`, the source and destination index vectors and the edge weights, both programs form

    * `neigh T` — for every edge, the row of `T` the edge's source index names (negative indices counted from the end,
      then brought into range), times the edge's weight; these rows added onto the row the edge's destination index
      names, starting from zero, an edge whose destination is out of range being dropped. At `(n, k)` this is
      `0 + ∑ e`, over the edges whose destination is `n`, of `T (source e, k) · w e`;
    * the in-degree `deg` — one added per edge onto its destination — and `max deg 1`.

  One program aggregates the node features themselves and carries `1 / max deg 1` as a column; the other aggregates
  the features already multiplied by the neighbour matrix and divides by `max deg 1`. The terms are those of the
  second program's stages, so that its own result is this text read at an index.
-/
import proofs.«157772_j10264971837830_2_alg».proof.Proof.Gen.ReferenceIdeal.Read
import proofs.«157772_j10264971837830_2_alg».proof.Proof.LibRowGatherScatter
import proofs.«157772_j10264971837830_2_alg».proof.Proof.LibMeanAggregate

noncomputable section

open scoped BigOperators

namespace Cert.Messages

open Cert.ReferenceIdeal Cert.ReferenceIdeal.Gen Cert.ReferenceIdeal.Read Idealize.ShloMosaic
open Idealize.ShloMosaic.ValueIdx Cert.RowGatherScatter

/-- The weighted rows of `T` taken at the edges' sources and added at their destinations. -/
def neigh (T : FVec Ideal S50000x128 .f32) (x1 x2 : IVec S800000 32) (x3 : FVec Ideal S800000 .f32) : FVec Ideal S50000x128 .f32 :=
  Host.scatterAdd scatter_S50000x128_S800000x1_S800000x128_1_0_0_1 (val_main_v12 (F := Ideal)) (val_main_v13 (F := Ideal) x2)
    (mulf (Host.gather gather_S50000x128_S800000x1_S800000x128_1_0_n_n_0_1_1128 T (val_main_v7 (F := Ideal) x1)) (val_main_v10 (F := Ideal) x3))

/-- The edges arriving at node `n`. -/
abbrev arriving (x2 : IVec S800000 32) (n : Fin 50000) : Finset (Fin 800000) :=
  hits (N := 50000) (val_main_v13 (F := Ideal) x2) n

/-- The node an edge leaves from. -/
abbrev source (x1 : IVec S800000 32) (e : Fin 800000) : Fin 50000 :=
  rowOf (N := 50000) (by decide) (val_main_v7 (F := Ideal) x1) e

/-- THE AGGREGATED ROWS AT `(n, k)`: zero plus, over the edges arriving at `n`, the source row's entry `k` times the
    edge's weight. -/
theorem neigh_apply (T : FVec Ideal S50000x128 .f32) (x1 x2 : IVec S800000 32) (x3 : FVec Ideal S800000 .f32)
    (n : Fin 50000) (k : Fin 128) :
    neigh T x1 x2 x3 (ix2 n k) = 0 + ∑ e ∈ arriving x2 n, T (ix2 (source x1 e) k) * x3 (ix1 e) := by
  unfold neigh
  refine (scatterAdd_rows_apply scatter_S50000x128_S800000x1_S800000x128_1_0_0_1_wf _ _ _ n k).trans ?_
  refine congrArg₂ (· + ·) ?_ (Finset.sum_congr rfl fun e _ => ?_)
  · rw [val_main_v12_apply, val_main_cst_apply]
    exact Ideal.ofBits_zero_f32
  · show Host.gather gather_S50000x128_S800000x1_S800000x128_1_0_n_n_0_1_1128 T (val_main_v7 (F := Ideal) x1) (ix2 e k)
        * val_main_v10 (F := Ideal) x3 (ix2 e k) = _
    rw [val_main_v10_apply, val_main_v9_apply]
    refine congrArg₂ (· * ·)
      (gather_rows_apply (by decide) gather_S50000x128_S800000x1_S800000x128_1_0_n_n_0_1_1128_wf T _ e k) (congrArg x3 ?_)
    funext a
    match a with
    | ⟨0, _⟩ => rfl

/-- The host's division at an index divides the entries. -/
theorem hostDivf_apply {s : Shape} (a b : FVec Ideal s .f32) (i : s.Idx) :
    Host.divf (F := Ideal) a b i = Ideal.div (a i) (b i) := rfl

/-- The first program's scaling column: one over the clipped in-degree. -/
def scaleCol (x2 : IVec S800000 32) : FVec Ideal S50000x1 .f32 :=
  broadcastInDim S50000x1 ![0] bcast_S50000_S50000x1_0
    (Host.divf (F := Ideal) (val_main_v19 (F := Ideal)) (val_main_v20 (F := Ideal) x2))

/-- The clipped in-degree of node `n`. -/
theorem clipped_apply (x2 : IVec S800000 32) (n : Fin 50000) :
    val_main_v20 (F := Ideal) x2 (ix1 n) = max (val_main_v18 (F := Ideal) x2 (ix1 n)) 1 := by
  rw [val_main_v20_apply, val_main_v19_apply, val_main_cst_3_apply, Ideal.maximumf_def, Ideal.ofBits_def,
    Cert.MeanAggregate.ofBits_one]

/-- The scaling column at node `n`. -/
theorem scaleCol_apply (x2 : IVec S800000 32) (n : Fin 50000) :
    scaleCol x2 (ix2 n (0 : Fin 1)) = Ideal.div 1 (max (val_main_v18 (F := Ideal) x2 (ix1 n)) 1) := by
  unfold scaleCol
  rw [broadcastInDim_apply _ bcast_S50000_S50000x1_0 _ (ix2 n (0 : Fin 1)) (ix1 n) (fun a => match a with
    | ⟨0, _⟩ => by show n.val = if (50000 : Nat) = 1 then 0 else n.val; rw [if_neg (by decide)])]
  rw [hostDivf_apply, clipped_apply, val_main_v19_apply, val_main_cst_3_apply, Ideal.ofBits_def,
    Cert.MeanAggregate.ofBits_one]

/-- The second program's divisor at `(n, q)` is the clipped in-degree of `n`. -/
theorem divisor_apply (x2 : IVec S800000 32) (n : Fin 50000) (q : Fin 128) :
    val_main_v22 (F := Ideal) x2 (ix2 n q) = max (val_main_v18 (F := Ideal) x2 (ix1 n)) 1 := by
  rw [val_main_v22_apply, val_main_v21_apply, ← clipped_apply]
  refine congrArg _ (funext fun a => ?_)
  match a with
  | ⟨0, _⟩ => rfl

end Cert.Messages

end
-- ==== Proof.Glue.lean ====
/-
  What the tiled region finds: the first program's host operations before the region compute the shared
  message-passing prefix (Messages.lean) of the argument arrays — the weighted source rows of the node features
  added at the destinations, and one over the clipped in-degree as a column — and the two transposed matrices.
-/
import proofs.«157772_j10264971837830_2_alg».proof.Proof.Gen.KernelIdeal.Frame
import proofs.«157772_j10264971837830_2_alg».proof.Proof.Messages
import Idealize.ShloMosaic.Lib.StableHlo.Run

noncomputable section

namespace Cert.KernelIdeal.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 1600000 in
/-- The aggregated neighbour features the region finds. -/
theorem found_neigh (c : Dev nD) : (V m c main_v14 : S50000x128.Idx → EReal)
    = Cert.Messages.neigh (m ((c : Thread nD τ).loc main_arg0)) (m ((c : Thread nD τ).loc main_arg1))
        (m ((c : Thread nD τ).loc main_arg2)) (m ((c : Thread nD τ).loc main_arg3)) := by
  dsimp only [Gen.V, Gen.hostOps0]
  after_results
  rfl

set_option maxHeartbeats 1600000 in
/-- The scaling column the region finds. -/
theorem found_scale (c : Dev nD) : (V m c main_v23 : S50000x1.Idx → EReal)
    = Cert.Messages.scaleCol (m ((c : Thread nD τ).loc main_arg2)) := by
  dsimp only [Gen.V, Gen.hostOps0]
  after_results
  rfl

/-- The transposed neighbour matrix the region finds. -/
theorem found_wn (c : Dev nD) : (V m c main_v0 : S128x128.Idx → EReal)
    = Cert.ReferenceIdeal.Read.val_main_v0 (F := Ideal) (m ((c : Thread nD τ).loc main_arg4)) := by
  dsimp only [Gen.V, Gen.hostOps0]
  after_results
  rfl

/-- The transposed self matrix the region finds. -/
theorem found_ws (c : Dev nD) : (V m c main_v1 : S128x128.Idx → EReal)
    = Cert.ReferenceIdeal.Read.val_main_v24 (F := Ideal) (m ((c : Thread nD τ).loc main_arg5)) := by
  dsimp only [Gen.V, Gen.hostOps0]
  after_results
  rfl

end Cert.KernelIdeal.Glue

end
-- ==== Proof.Bridge.lean ====
/-
  The two programs compute one function.

  Fed the node features themselves as the table to aggregate, with one over the clipped in-degree as the scaling
  column and the two transposed matrices, the node update (NodeUpdate.lean) is the other program's last stage: at
  node `n` and output feature `q` both hold the self term `∑ k, x (n, k) · Ws (q, k)` and the bias `b q` — added in
  a different order, which the extended reals do not mind — and a neighbour term, which the aggregation law
  (LibMeanAggregate.lean) identifies once the features, the weights and the neighbour matrix are real.
-/
import proofs.«157772_j10264971837830_2_alg».proof.Proof.Messages
import proofs.«157772_j10264971837830_2_alg».proof.Proof.NodeUpdate

noncomputable section

open scoped BigOperators

namespace Cert.Bridge

open Cert.ReferenceIdeal Cert.ReferenceIdeal.Gen Cert.ReferenceIdeal.Read Idealize.ShloMosaic
open Idealize.ShloMosaic.ValueIdx Cert.Messages Cert.NodeUpdate Cert.MeanAggregate

/-- The second program's neighbour stage before the division is the aggregation of the features times the neighbour
    matrix. -/
theorem aggregated_eq (x0 : FVec Ideal S50000x128 .f32) (x1 x2 : IVec S800000 32) (x3 : FVec Ideal S800000 .f32)
    (x4 : FVec Ideal S128x128 .f32) :
    val_main_v14 (F := Ideal) x0 x1 x2 x3 x4 = neigh (val_main_v1 (F := Ideal) x0 x4) x1 x2 x3 := rfl

/-- The features times the transposed neighbour matrix at `(s, q)`. -/
theorem projected_apply (x0 : FVec Ideal S50000x128 .f32) (x4 : FVec Ideal S128x128 .f32) (s : Fin 50000) (q : Fin 128) :
    val_main_v1 (F := Ideal) x0 x4 (ix2 s q) = ∑ k : Fin 128, x0 (ix2 s k) * val_main_v0 (F := Ideal) x4 (ix2 k q) := by
  rw [val_main_v1_apply]
  refine Finset.sum_congr rfl fun k _ => ?_
  have hl : lidx_main_v1 (ix2 s q) k = ix2 s k := funext fun a => match a with
    | ⟨0, _⟩ => rfl
    | ⟨1, _⟩ => rfl
  have hr : ridx_main_v1 (ix2 s q) k = ix2 k q := funext fun a => match a with
    | ⟨0, _⟩ => rfl
    | ⟨1, _⟩ => rfl
  rw [hl, hr]

/-- The features times the transposed self matrix at `(n, q)`. -/
theorem self_apply (x0 : FVec Ideal S50000x128 .f32) (x5 : FVec Ideal S128x128 .f32) (n : Fin 50000) (q : Fin 128) :
    val_main_v25 (F := Ideal) x0 x5 (ix2 n q) = ∑ k : Fin 128, x0 (ix2 n k) * val_main_v24 (F := Ideal) x5 (ix2 k q) := by
  rw [val_main_v25_apply]
  refine Finset.sum_congr rfl fun k _ => ?_
  have hl : lidx_main_v25 (ix2 n q) k = ix2 n k := funext fun a => match a with
    | ⟨0, _⟩ => rfl
    | ⟨1, _⟩ => rfl
  have hr : ridx_main_v25 (ix2 n q) k = ix2 k q := funext fun a => match a with
    | ⟨0, _⟩ => rfl
    | ⟨1, _⟩ => rfl
  rw [hl, hr]

/-- The bias repeated over the rows, at `(n, q)`. -/
theorem bias_apply (x6 : FVec Ideal S128 .f32) (n : Fin 50000) (q : Fin 128) :
    val_main_v27 (F := Ideal) x6 (ix2 n q) = x6 (ix1 q) := by
  rw [val_main_v27_apply, val_main_v26_apply]
  refine congrArg x6 (funext fun a => ?_)
  match a with
  | ⟨0, _⟩ => rfl

/-- An entry of the transposed neighbour matrix. -/
theorem transposed_apply (x4 : FVec Ideal S128x128 .f32) (k q : Fin 128) :
    val_main_v0 (F := Ideal) x4 (ix2 k q) = x4 (ix2 q k) := by
  rw [val_main_v0_apply]
  refine congrArg x4 (funext fun a => ?_)
  match a with
  | ⟨0, _⟩ => rfl
  | ⟨1, _⟩ => rfl

/-- Adding the same extended real on the left of equal ones. -/
theorem add_left_congr (A X Y : EReal) (h : X = Y) : A + X = A + Y := congrArg (A + ·) h

/-- THE BRIDGE: with real features, weights and neighbour matrix, the node update of the shared prefix is the second
    program's result. -/
theorem update_eq_reference (x0 : FVec Ideal S50000x128 .f32) (x1 x2 : IVec S800000 32) (x3 : FVec Ideal S800000 .f32)
    (x4 x5 : FVec Ideal S128x128 .f32) (x6 : FVec Ideal S128 .f32)
    (h0 : ∀ i, ∃ r : ℝ, x0 i = (r : EReal)) (h3 : ∀ i, ∃ r : ℝ, x3 i = (r : EReal)) (h4 : ∀ i, ∃ r : ℝ, x4 i = (r : EReal)) :
    update x0 (neigh x0 x1 x2 x3) (scaleCol x2) (val_main_v0 (F := Ideal) x4) (val_main_v24 (F := Ideal) x5) x6
      = val_main_v29 (F := Ideal) x0 x1 x2 x3 x4 x5 x6 := by
  choose f0 hf0 using h0
  choose f3 hf3 using h3
  choose f4 hf4 using h4
  funext i
  obtain ⟨n, q, rfl⟩ : ∃ (n : Fin 50000) (q : Fin 128), i = ix2 n q := ⟨i 0, i 1, eq_ix2 i⟩
  rw [update_apply]
  unfold updateAt
  rw [val_main_v29_apply, val_main_v28_apply, val_main_v23_apply, self_apply, bias_apply, divisor_apply, aggregated_eq,
    neigh_apply, scaleCol_apply, Ideal.addf_def, Ideal.addf_def, Ideal.hostDivf_def, add_right_comm]
  refine add_left_congr _ _ _ ?_
  simp only [neigh_apply, projected_apply, transposed_apply, hf0, hf3, hf4]
  exact aggregate_ereal (arriving x2 n) (fun e k => f0 (ix2 (source x1 e) k)) (fun e => f3 (ix1 e))
    (fun k => f4 (ix2 q k)) (val_main_v18 (F := Ideal) x2 (ix1 n))

end Cert.Bridge

end
-- ==== Proof.RealEntries.lean ====
/-
  What the precondition gives: the float inputs hold real numbers.

  The precondition is the conjunction, over the five float inputs, of "every entry's absolute value is below +∞".
  An extended real whose absolute value `max x (-x)` is below `⊤` is neither `⊤` nor `⊥`, so it is a real. The law
  that joins the two programs (LibMeanAggregate.lean) needs this of the node features, the edge weights and the
  neighbour matrix; the self matrix and the bias enter both programs the same way and may be anything.
-/
import proofs.«157772_j10264971837830_2_alg».proof.Pre_finite_inputs
import proofs.«157772_j10264971837830_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.RealEntries

open Idealize.ShloMosaic Cert.Pre_finite_inputs Cert.Pre_finite_inputs.Gen

instance : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_inf] at h
  induction x using EReal.rec with
  | bot => exact absurd h (by simp [Ideal.cmp])
  | coe r => exact ⟨r, rfl⟩
  | top => exact absurd h (by simp [Ideal.cmp])

/-- One conjunct of the precondition: "all entries of `x` are below `+∞` in absolute value" gives every entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) := by
  have hi := Host.reduce_andi_all _ _ hr hu ValueIdx.ix0 h i
  have hbc : broadcastInDim s ![] hb (constant (F := Ideal) S_ .f32 0x7F800000#32) i
      = FloatOps.ofBits (F := Ideal) .f32 0x7F800000#32 :=
    broadcastInDim_apply _ hb _ i ValueIdx.ix0 (fun a => a.elim0)
  rw [ValueIdx.cmpf_apply, hbc] at hi
  exact real_of_abs_lt_inf (x i) hi

/-- THE PRECONDITION'S CONTENT: the node features, the edge weights and the neighbour matrix hold real numbers. -/
theorem real_entries (x0 : FVec Ideal S50000x128 .f32) (x1 x2 : IVec S800000 32) (x3 : FVec Ideal S800000 .f32)
    (x4 x5 : FVec Ideal S128x128 .f32) (x6 : FVec Ideal S128 .f32)
    (h : fn (F := Ideal) x0 x1 x2 x3 x4 x5 x6 = fun _ => 1#1) :
    (∀ i, ∃ r : ℝ, x0 i = (r : EReal)) ∧ (∀ i, ∃ r : ℝ, x3 i = (r : EReal)) ∧ (∀ i, ∃ r : ℝ, x4 i = (r : EReal)) := by
  have h0 := congrFun h ValueIdx.ix0
  dsimp only [fn, fn_part1] at h0
  obtain ⟨h18, -⟩ := IntOp.andi_eq_one.mp h0
  obtain ⟨h13, -⟩ := IntOp.andi_eq_one.mp h18
  obtain ⟨h8, h12⟩ := IntOp.andi_eq_one.mp h13
  obtain ⟨h3, h7⟩ := IntOp.andi_eq_one.mp h8
  exact ⟨real_of_all x0 _ _ _ h3, real_of_all x3 _ _ _ h7, real_of_all x4 _ _ _ h12⟩

end Cert.RealEntries

end
-- ==== Proof.lean ====
/-
  A graph layer with mean aggregation, tiled, against its plain form.

  Both programs take node features `x : [50000, 128]`, 800000 edges given by a source and a destination index and a
  weight, two `128 × 128` matrices `Wn`, `Ws` and a bias `b`, and return for every node `n`

      x n · Wsᵀ  +  b  +  (1 / max (deg n) 1) · ∑ over the edges e arriving at n of  w e · (x (source e) · Wnᵀ),

  `deg n` the number of edges arriving at `n`. The reference multiplies every node's features by `Wnᵀ` first, then
  takes the source rows, weights them, adds them up at the destinations and divides by the clipped degree. The kernel
  aggregates the raw features, keeps `1 / max deg 1` as a column, and leaves both matrix products, the scaling and
  the bias to one tiled region over ten blocks of 5000 nodes.

  How the proof goes. The region's result is the node update of the six arrays the region finds, tile by tile
  (NodeUpdate.lean, Tiles.lean); those arrays are the shared message-passing prefix of the arguments (Messages.lean,
  Glue.lean); under the precondition the features, the weights and `Wn` are real numbers (RealEntries.lean); and for
  real entries exchanging the two finite sums and distributing the scaling turns the one form into the other
  (LibMeanAggregate.lean, Bridge.lean). The three frames are the generated ones; nothing was rewritten on the way to the
  ideal values, so there is nothing to preserve.
-/
import proofs.«157772_j10264971837830_2_alg».proof.Defs
import proofs.«157772_j10264971837830_2_alg».proof.Proof.Gen.Kernel
import proofs.«157772_j10264971837830_2_alg».proof.Proof.Gen.Kernel.Skeleton
import proofs.«157772_j10264971837830_2_alg».proof.Proof.Gen.Kernel.Launch
import proofs.«157772_j10264971837830_2_alg».proof.Proof.Gen.Kernel.Points
import proofs.«157772_j10264971837830_2_alg».proof.Proof.Gen.Kernel.Frame
import proofs.«157772_j10264971837830_2_alg».proof.Proof.Gen.KernelIdeal
import proofs.«157772_j10264971837830_2_alg».proof.Proof.Gen.KernelIdeal.Skeleton
import proofs.«157772_j10264971837830_2_alg».proof.Proof.Gen.KernelIdeal.Launch
import proofs.«157772_j10264971837830_2_alg».proof.Proof.Gen.KernelIdeal.Points
import proofs.«157772_j10264971837830_2_alg».proof.Proof.Gen.KernelIdeal.Frame
import proofs.«157772_j10264971837830_2_alg».proof.Proof.Gen.ReferenceIdeal
import proofs.«157772_j10264971837830_2_alg».proof.Proof.Gen.Pre_finite_inputs
import proofs.«157772_j10264971837830_2_alg».proof.Proof.Gen.KernelIdeal.Value
import proofs.«157772_j10264971837830_2_alg».proof.Proof.Gen.ReferenceIdeal.Run
import proofs.«157772_j10264971837830_2_alg».proof.Proof.Gen.ReferenceIdeal.Read
import proofs.«157772_j10264971837830_2_alg».proof.Proof.Tiles
import proofs.«157772_j10264971837830_2_alg».proof.Proof.Glue
import proofs.«157772_j10264971837830_2_alg».proof.Proof.Bridge
import proofs.«157772_j10264971837830_2_alg».proof.Proof.RealEntries
import Idealize.ShloMosaic.Adequacy
import Idealize.ShloMosaic.Init

noncomputable section

namespace Cert.Proof

open Idealize.ShloMosaic Idealize.ShloMosaic.TcCoe Idealize.SL.Sem

/-- The table the region leaves is the reference's last stage of the same arguments, when the features, the weights
    and the neighbour matrix are real. -/
theorem table_eq (m : (ℓ : Loc Cert.KernelIdeal.nD Cert.KernelIdeal.τ Cert.KernelIdeal.sig) → Buf (Elt Ideal) ℓ)
    (c : Dev Cert.KernelIdeal.nD)
    (h0 : ∀ i, ∃ r : ℝ, m ((c.tc : Thread Cert.KernelIdeal.nD Cert.KernelIdeal.τ).loc Cert.KernelIdeal.main_arg0) i = (r : EReal))
    (h3 : ∀ i, ∃ r : ℝ, m ((c.tc : Thread Cert.KernelIdeal.nD Cert.KernelIdeal.τ).loc Cert.KernelIdeal.main_arg3) i = (r : EReal))
    (h4 : ∀ i, ∃ r : ℝ, m ((c.tc : Thread Cert.KernelIdeal.nD Cert.KernelIdeal.τ).loc Cert.KernelIdeal.main_arg4) i = (r : EReal)) :
    Cert.KernelIdeal.Tiles.table m c
      = Cert.ReferenceIdeal.Read.val_main_v29 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  show Cert.NodeUpdate.update (Cert.KernelIdeal.Gen.V m c Cert.KernelIdeal.main_arg0) (Cert.KernelIdeal.Gen.V m c Cert.KernelIdeal.main_v14)
      (Cert.KernelIdeal.Gen.V m c Cert.KernelIdeal.main_v23) (Cert.KernelIdeal.Gen.V m c Cert.KernelIdeal.main_v0)
      (Cert.KernelIdeal.Gen.V m c Cert.KernelIdeal.main_v1) (Cert.KernelIdeal.Gen.V m c Cert.KernelIdeal.main_arg6) = _
  rw [Cert.KernelIdeal.Gen.V_main_arg0 m c, Cert.KernelIdeal.Glue.found_neigh m c, Cert.KernelIdeal.Glue.found_scale m c,
    Cert.KernelIdeal.Glue.found_wn m c, Cert.KernelIdeal.Glue.found_ws m c, Cert.KernelIdeal.Gen.V_main_arg6 m c]
  exact Cert.Bridge.update_eq_reference _ _ _ _ _ _ _ h0 h3 h4

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values both programs end with the node update of the shared prefix: the kernel tile by tile, the
    reference as its last stage, equal under the precondition. -/
theorem algebraic : Cert.algebraic_KernelIdeal_ReferenceIdeal := by
  intro m ρ m' ρ' hpre hagree
  refine ⟨fun c => Cert.KernelIdeal.Tiles.table m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h0, h3, h4⟩ := Cert.RealEntries.real_entries _ _ _ _ _ _ _ (hpre c)
  rw [a0, a1, a2, a3, a4, a5, a6, Cert.ReferenceIdeal.Read.val_main_v29_eq]
  exact (table_eq m c h0 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
